-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel

variable [Facts]

def fn {F : FTy → Type} [FloatOps F] (main_arg0 : FVec F S65536x512 .f32) (main_arg1 : FVec F S65536x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  main_v8
-- ==== Kernel.lean ====
abbrev S65536x512 : Shape := ⟨2, ![65536, 512]⟩
abbrev S512 : Shape := ⟨1, ![512]⟩
abbrev S1x512 : Shape := ⟨2, ![1, 512]⟩
abbrev S_ : Shape := ⟨0, ![]⟩
abbrev S16x512 : Shape := ⟨2, ![16, 512]⟩
abbrev S1024x512 : Shape := ⟨2, ![1024, 512]⟩
abbrev S8x512 : Shape := ⟨2, ![8, 512]⟩
abbrev S128x8x512 : Shape := ⟨3, ![128, 8, 512]⟩

abbrev nBuf : Space → Nat
  | .hbm => 15
  | .vmem => 7
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S512, .i32⟩
  | .hbm, ⟨3, _⟩ => ⟨S1x512, .i32⟩
  | .hbm, ⟨4, _⟩ => ⟨S_, .i32⟩
  | .hbm, ⟨5, _⟩ => ⟨S1x512, .i32⟩
  | .hbm, ⟨6, _⟩ => ⟨S1x512, .i1⟩
  | .hbm, ⟨7, _⟩ => ⟨S_, .f32⟩
  | .hbm, ⟨8, _⟩ => ⟨S_, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S16x512, .f32⟩
  | .hbm, ⟨13, _⟩ => ⟨S_, .f32⟩
  | .hbm, ⟨14, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S512_S1x512_1 : S512.BroadcastsInDim S1x512 (![1] : Fin 1 → Fin S1x512.rank)
  bcast_S_S1x512 : S_.BroadcastsInDim S1x512 (![] : Fin 0 → Fin S1x512.rank)
  inb_S8x512_S8x512_0_0 : ∀ a, (![0, 0] : Fin 2 → Nat) a + S8x512.size a ≤ S8x512.size a
  h_S8x512 : 0 < S8x512.numel
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  rotates_S1024x512_d1 : S1024x512.Rotates 1 none
  broadcasts_S1x512_S1024x512 : S1x512.Broadcasts S1024x512
  shapeCasts_S1024x512_S128x8x512 : S1024x512.ShapeCasts S128x8x512
  reduces_S128x8x512_S8x512 : S128x8x512.Reduces [0] S8x512
  shapeCasts_S8x512_S8x512 : S8x512.ShapeCasts S8x512
  reducesTo_S16x512_S_d0_1 : S16x512.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S65536x512.size a
  hwx0_1 : ∀ i : grid0.Coords, EltTy.bits .f32 = 32 ∨ (Rect.block (s := S65536x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S16x512.size a
  hwx0_3 : ∀ i : grid0.Coords, EltTy.bits .f32 = 32 ∨ (Rect.block (s := S16x512) S8x512.size (cc0_transform_3 i) (hinb0_3 i)).WholeWords (EltTy.packing .f32)

variable [Facts₀]

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536x511 : Shape := ⟨2, ![65536, 511]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S65536x511, .f32⟩
  | .hbm, ⟨3, _⟩ => ⟨S65536x511, .f32⟩
  | .hbm, ⟨4, _⟩ => ⟨S65536x511, .f32⟩
  | .hbm, ⟨5, _⟩ => ⟨S_, .i32⟩
  | .hbm, ⟨6, _⟩ => ⟨S_, .f32⟩
  | .hbm, ⟨7, _⟩ => ⟨S65536x512, .f32⟩
  | .hbm, ⟨8, _⟩ => ⟨S65536x512, .f32⟩
  | .hbm, ⟨9, _⟩ => ⟨S_, .f32⟩
  | .hbm, ⟨10, _⟩ => ⟨S65536x512, .f32⟩
  | .hbm, ⟨11, _⟩ => ⟨S65536x512, .f32⟩
  | .hbm, ⟨12, _⟩ => ⟨S_, .f32⟩
  | .hbm, ⟨13, _⟩ => ⟨S65536x512, .f32⟩
  | .hbm, ⟨14, _⟩ => ⟨S65536x512, .f32⟩
  | .hbm, ⟨15, _⟩ => ⟨S65536x512, .f32⟩
  | .hbm, ⟨16, _⟩ => ⟨S_, .f32⟩
  | .hbm, ⟨17, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_call1_cst : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  slices_S65536x512_S65536x511_0_1 : S65536x512.Slices ![0, 1] S65536x511
  slices_S65536x512_S65536x511_0_0 : S65536x512.Slices ![0, 0] S65536x511
  pads_S65536x511_S65536x512_000_100 : S65536x511.Pads (![0, 1] : Fin 2 → Nat) ![0, 0] ![0, 0] S65536x512
  h_S_ : 0 < S_.numel
  bcast_S_S65536x512 : S_.BroadcastsInDim S65536x512 (![] : Fin 0 → Fin S65536x512.rank)
  reducesTo_S65536x512_S_d0_1 : S65536x512.ReducesTo [0, 1] S_

variable [Facts₀]

class Facts : Prop extends Facts₀ where

variable [Facts]
-- ==== Proof.KCases.lean ====
/-
  What a grid step leaves in the eight running rows, case by case.

  A step that is the first of its core's 32 stores zeros, reads them back, and stores the step's value over them; any
  other step stores the step's value over what the step before left. In both cases the stored value is the body's one
  pure term of the three input blocks and of the running rows it read.
-/
import proofs.«122313_j24154896073265_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KSide

open Cert.KernelIdeal Cert.KernelIdeal.Gen

variable {F : FTy → Type} [FloatOps F]

theorem hz : (![0, 0] : Fin 2 → Nat) = fun _ => 0 := funext fun a => by fin_cases a <;> rfl

/-- A step that is not its core's first leaves the step's value over the running rows `xo` it found. -/
theorem out_B (c : Dev nD) (i : grid0.Coords) (a2 : Memref sig .tc .vmem S1024x512 .f32) (h2 : a2.IsWhole)
    (a3 : Memref sig .tc .vmem S1024x512 .f32) (h3 : a3.IsWhole) (a4 : Memref sig .tc .vmem S1x512 .f32) (h4 : a4.IsWhole)
    (a5 : Memref sig .tc .vmem S8x512 .f32) (h5 : a5.IsWhole) (hc : ¬cond0_0 i)
    (x0 x1 : Vec F S1024x512 .f32) (x2 : Vec F S1x512 .f32) (xo : Vec F S8x512 .f32) :
    out0_B_3 c i a2 h2 a3 h3 a4 h4 a5 h5 hc x0 x1 x2 xo = k0_pay2 x0 x1 x2 xo := by
  unfold out0_B_3
  rw [View.read_writes_eq_canon _ _ _ (cover0_B_3 c i a2 h2 a3 h3 a4 h4 a5 h5 hc x0 x1 x2 xo)]
  unfold kernelRun0_B
  dsimp only
  rw [View.canon_unit_zero hz]
  simp only [View.readAt_eq_ld, h2.read_unread, h3.read_unread, h4.read_unread, h5.read_unread,
    View.ld_unit_zero (S := S1024x512) hz, View.ld_unit_zero (S := S1x512) hz, View.ld_unit_zero (S := S8x512) hz]

/-- A core's first step leaves the step's value over the zeros it has just stored. -/
theorem out_A (c : Dev nD) (i : grid0.Coords) (a2 : Memref sig .tc .vmem S1024x512 .f32) (h2 : a2.IsWhole)
    (a3 : Memref sig .tc .vmem S1024x512 .f32) (h3 : a3.IsWhole) (a4 : Memref sig .tc .vmem S1x512 .f32) (h4 : a4.IsWhole)
    (a5 : Memref sig .tc .vmem S8x512 .f32) (h5 : a5.IsWhole) (hc : cond0_0 i)
    (x0 x1 : Vec F S1024x512 .f32) (x2 : Vec F S1x512 .f32) :
    out0_A_3 c i a2 h2 a3 h3 a4 h4 a5 h5 hc x0 x1 x2 = k0_pay2 x0 x1 x2 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S8x512) hz, View.readCov_unit_zero (S := S8x512) _ hz]
  simp only [View.readAt_eq_ld, h2.read_unread, h3.read_unread, h4.read_unread,
    View.ld_unit_zero (S := S1024x512) hz, View.ld_unit_zero (S := S1x512) hz, View.ld_unit_zero (S := S8x512) hz]

end Cert.KSide

end
-- ==== Proof.KBlocks.lean ====
/-
  The three input blocks of a grid step, read at an entry.

  Step `t` (of 64, the two cores' 32 steps in order) stages rows `1024 t … 1024 t + 1023` of x and of the mask, all 512
  columns, and the whole one-row lane mask. The lane mask is computed before the launch as "column = 0 ? 0 : 1".
-/
import proofs.«122313_j24154896073265_2_alg».proof.Proof.Gen.KernelIdeal.Frame
import Idealize.ShloMosaic.Lib.Pipeline.Value
import Idealize.ShloMosaic.Lib.ValueIdx
import Idealize.ShloMosaic.Lib.IdealHost
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KSide

open Cert.KernelIdeal Cert.KernelIdeal.Gen

variable {F : FTy → Type} [FloatOps F]
variable (m : (ℓ : Loc nD τ sig) → Buf (Elt F) ℓ)

/-- Where each window's block sits at step `t`, in blocks: x and the mask at block row `t`, the lane mask at its one
    block, the running rows at block row `t / 32` (the core). -/
theorem idx_facts : ∀ t : Fin cfg0.N, win0_0.index t 0 = t.val ∧ win0_0.index t 1 = 0 ∧ win0_1.index t 0 = t.val
    ∧ win0_1.index t 1 = 0 ∧ win0_2.index t 0 = 0 ∧ win0_2.index t 1 = 0 ∧ win0_3.index t 0 = t.val / 32 ∧ win0_3.index t 1 = 0 :=
  (by decide +kernel : ∀ t : Fin grid0.N, win0_0.index t 0 = t.val ∧ win0_0.index t 1 = 0 ∧ win0_1.index t 0 = t.val
    ∧ win0_1.index t 1 = 0 ∧ win0_2.index t 0 = 0 ∧ win0_2.index t 1 = 0 ∧ win0_3.index t 0 = t.val / 32 ∧ win0_3.index t 1 = 0)

/-- The block of x at step `t`, entry `(p, q)`, is x at row `1024 t + p`. -/
theorem iblk0_apply (c : Dev nD) (t : Fin cfg0.N) (p : Fin 1024) (q : Fin 512) (r : Fin 65536) (hr : r.val = t.val * 1024 + p.val) :
    (iblk m c 0 t : Vec F S1024x512 .f32) (ix2 p q) = m ((c : Thread nD τ).loc main_arg0) (ix2 r q) := by
  unfold iblk
  rw [View.read_apply]
  show V m c main_arg0 _ = _
  rw [V_main_arg0]
  congr 1
  funext a
  apply Fin.ext
  match a with
  | ⟨0, _⟩ => show win0_0.index t 0 * 1024 + 1 * p.val = r.val; rw [(idx_facts t).1, hr]; omega
  | ⟨1, _⟩ => show win0_0.index t 1 * 512 + 1 * q.val = q.val; rw [(idx_facts t).2.1]; omega

/-- The block of the mask at step `t`, entry `(p, q)`, is the mask at row `1024 t + p`. -/
theorem iblk1_apply (c : Dev nD) (t : Fin cfg0.N) (p : Fin 1024) (q : Fin 512) (r : Fin 65536) (hr : r.val = t.val * 1024 + p.val) :
    (iblk m c 1 t : Vec F S1024x512 .f32) (ix2 p q) = m ((c : Thread nD τ).loc main_arg1) (ix2 r q) := by
  unfold iblk
  rw [View.read_apply]
  show V m c main_arg1 _ = _
  rw [V_main_arg1]
  congr 1
  funext a
  apply Fin.ext
  match a with
  | ⟨0, _⟩ => show win0_1.index t 0 * 1024 + 1 * p.val = r.val; rw [(idx_facts t).2.2.1, hr]; omega
  | ⟨1, _⟩ => show win0_1.index t 1 * 512 + 1 * q.val = q.val; rw [(idx_facts t).2.2.2.1]; omega

/-- The lane mask's block at any step is the lane mask. -/
theorem iblk2_apply (c : Dev nD) (t : Fin cfg0.N) (q : Fin 512) :
    (iblk m c 2 t : Vec F S1x512 .f32) (ix2 (0 : Fin 1) q) = (V m c main_v4 : S1x512.Idx → Elt F .f32) (ix2 (0 : Fin 1) q) := by
  unfold iblk
  rw [View.read_apply]
  show V m c main_v4 _ = _
  congr 1
  funext a
  apply Fin.ext
  match a with
  | ⟨0, _⟩ => show win0_2.index t 0 * 1 + 1 * 0 = 0; rw [(idx_facts t).2.2.2.2.1]
  | ⟨1, _⟩ => show win0_2.index t 1 * 512 + 1 * q.val = q.val; rw [(idx_facts t).2.2.2.2.2.1]; omega

/-- The lane mask as the operations before the launch compute it. -/
theorem V_lane (c : Dev nD) : (V m c main_v4 : S1x512.Idx → Elt F .f32)
    = select (cmpi .eq (broadcastInDim S1x512 ![1] bcast_S512_S1x512_1 (iotaInDim S512 32 0))
        (broadcastInDim S1x512 ![] bcast_S_S1x512 (constantI S_ 32 0#32)))
      (broadcastInDim S1x512 ![] bcast_S_S1x512 (constant (F := F) S_ .f32 0x00000000#32))
      (broadcastInDim S1x512 ![] bcast_S_S1x512 (constant (F := F) S_ .f32 0x3F800000#32)) := by
  dsimp only [V, V0]
  simp only [hostOps0, hostOps0_1, List.flatten_cons, List.flatten_nil, List.append_nil, List.cons_append, List.nil_append]
  after_results
  rfl

end Cert.KSide

end
-- ==== Proof.Spec.lean ====
/-
  The loss both programs compute, as one function of the two argument arrays, on the extended reals.

  For a row `r` and a column `q ≥ 1` the term is `max(|x[r,q] − x[r,q−1]| − 1, 0) · mask[r,q]`; the column `q = 0`
  contributes nothing. The loss is the sum of the terms over all 65536 × 512 entries, from zero.
  The column before `q` is written `(q + 511) mod 512`: for `q ≥ 1` that is `q − 1`, and at `q = 0` it is the last
  column, the one a rotation of the lanes by one brings round (its term is multiplied by zero there).
-/
import Idealize.ShloMosaic.PureOps.Ideal
import Idealize.ShloMosaic.Lib.ValueIdx

noncomputable section

namespace Cert.Spec

open Idealize.ShloMosaic Idealize.ShloMosaic.ValueIdx

/-- The shape of the two argument arrays. -/
abbrev SX : Shape := ⟨2, ![65536, 512]⟩

/-- `max(|d| − 1, 0)` on the extended reals, the absolute value written `max d (−d)`. -/
def hinge (d : EReal) : EReal := max (max d (-d) - 1) 0

/-- The column before `q`, around the end. -/
def prev (q : Fin 512) : Fin 512 := ⟨(q.val + 511) % 512, Nat.mod_lt _ (by norm_num)⟩

theorem prev_val_of_pos (q : Fin 512) (h : q.val ≠ 0) : (prev q).val = q.val - 1 := by
  have := q.isLt
  show (q.val + 511) % 512 = q.val - 1
  omega

/-- Row `8 g + s` of a block of 1024 rows: sublane `s` of the block's `g`-th group of eight rows. -/
def subRow (g : Fin 128) (s : Fin 8) : Fin 1024 := ⟨g.val * 8 + s.val, by have := g.isLt; have := s.isLt; omega⟩

/-- The loss term of entry `(r, q)`. -/
def term (x m : FVec Ideal SX .f32) (r : Fin 65536) (q : Fin 512) : EReal :=
  if q.val = 0 then 0 else hinge (x (ix2 r q) - x (ix2 r (prev q))) * m (ix2 r q)

/-- The same with the row a natural number (zero past the last row). -/
def rowTerm (x m : FVec Ideal SX .f32) (r : ℕ) (q : Fin 512) : EReal :=
  if h : r < 65536 then term x m ⟨r, h⟩ q else 0

theorem rowTerm_of_lt (x m : FVec Ideal SX .f32) (r : ℕ) (h : r < 65536) (q : Fin 512) :
    rowTerm x m r q = term x m ⟨r, h⟩ q := dif_pos h

/-- The loss: the sum of all terms, from zero. -/
def loss (x m : FVec Ideal SX .f32) : EReal := 0 + ∑ r : Fin 65536, ∑ q : Fin 512, term x m r q

end Cert.Spec

end
-- ==== Proof.Payload.lean ====
/-
  What one grid step computes, read at an entry.

  From a block of 1024 rows of x, the same block of the mask, and the one-row lane mask, a step forms for every entry
  max(|x[p,q] − x[p,q−1 around the end]| − 1, 0) · mask[p,q] · lane[q], groups the 1024 rows into 128 groups of 8, sums over
  the groups, and adds the result to what the 8 running rows held. So running row s, lane q gains the sum over the 128
  groups g of the entry at row 8 g + s.
-/
import proofs.«122313_j24154896073265_2_alg».proof.Proof.Gen.KernelIdeal.Skeleton
import proofs.«122313_j24154896073265_2_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.Payload

open Idealize.ShloMosaic Idealize.ShloMosaic.ValueIdx Cert.KernelIdeal Cert.Spec

/-- The value a first step stores before accumulating: zero everywhere. -/
theorem pay1_apply (j : S8x512.Idx) : Cert.KernelIdeal.Gen.k0_pay1 (F := Ideal) j = 0 :=
  Ideal.ofBits_zero_f32

/-- A rotation of the lanes by one reads, at lane `q`, the lane before `q`, around the end. -/
theorem rotate_apply (x : FVec Ideal S1024x512 .f32) (h : S1024x512.Rotates 1 none) (p : Fin 1024) (q : Fin 512) :
    dynamicRotate 1 1#32 none x h (ix2 p q) = x (ix2 p (prev q)) :=
  dynamicRotate_apply 1 1#32 x h (ix2 p q) (ix2 p (prev q)) (fun b => by
    match b with
    | ⟨0, _⟩ => rfl
    | ⟨1, _⟩ =>
      show (q.val + 511) % 512 = (q.val + 512 - 1 % 512) % 512
      omega)

/-- The 1024 rows seen as 128 groups of 8: entry `(g, s, q)` of the grouped array is entry `(8 g + s, q)`. -/
theorem group_apply (x : FVec Ideal S1024x512 .f32) (h : S1024x512.ShapeCasts S128x8x512)
    (g : Fin 128) (s : Fin 8) (q : Fin 512) :
    shapeCast S128x8x512 x h (ix3 g s q) = x (ix2 (subRow g s) q) :=
  shapeCast_apply x h _ _ (by
    rw [Shape.rowMajor_val_two, Shape.rowMajor_val_three]
    rfl)

/-- The sum over the groups: entry `(s, q)` of the reduced array is the sum over `g` of entry `(g, s, q)`. -/
theorem groupSum_apply (x : FVec Ideal S128x8x512 .f32) (h : S128x8x512.Reduces [0] S8x512) (hφ : FKind.Formats .f32)
    (hacc : (0x00000000#32 : BitVec 32) = FKind.add.neutral .f32 hφ) (s : Fin 8) (q : Fin 512) :
    multiReduction (F := Ideal) .add [0] S8x512 x 0x00000000#32 h hφ hacc (ix2 s q) = ∑ g : Fin 128, x (ix3 g s q) := by
  refine (Ideal.multiReduction_add_single x _ h hφ hacc (ix2 s q)).trans ?_
  show ∑ g : Fin 128, x (h.lift (ix2 s q) g) = _
  refine Finset.sum_congr rfl fun g _ => congrArg x (funext fun c => Fin.ext ?_)
  match c with
  | ⟨0, _⟩ => rfl
  | ⟨1, _⟩ => rfl
  | ⟨2, _⟩ => rfl

/-- The entry a step forms at row `p`, lane `q`: the hinge of the difference with the lane before, times the mask's entry,
    times the lane mask's entry. -/
theorem entry_apply (v3 v4 : FVec Ideal S1024x512 .f32) (v5 : FVec Ideal S1x512 .f32)
    (h6 : S1x512.ShapeCasts S1x512) (h7 : S1024x512.Rotates 1 none) (h15 : S1x512.Broadcasts S1024x512)
    (p : Fin 1024) (q : Fin 512) :
    mulf (mulf (maximumf (subf (absf (subf v3 (dynamicRotate 1 1#32 none v3 h7)))
            (broadcast S1024x512 (Scalar.ofBits (F := Ideal) .f32 0x3F800000#32)))
          (broadcast S1024x512 (Scalar.ofBits (F := Ideal) .f32 0x00000000#32))) v4)
        (broadcastTo S1024x512 (shapeCast S1x512 v5 h6) h15) (ix2 p q)
      = hinge (v3 (ix2 p q) - v3 (ix2 p (prev q))) * v4 (ix2 p q) * v5 (ix2 (0 : Fin 1) q) := by
  show max (max (v3 (ix2 p q) - dynamicRotate 1 1#32 none v3 h7 (ix2 p q))
            (-(v3 (ix2 p q) - dynamicRotate 1 1#32 none v3 h7 (ix2 p q))) - Ideal.ofBits .f32 0x3F800000#32)
          (Ideal.ofBits .f32 0x00000000#32) * v4 (ix2 p q)
        * broadcastTo S1024x512 (shapeCast S1x512 v5 h6) h15 (ix2 p q) = _
  rw [rotate_apply v3 h7 p q, broadcastTo_1b_ab_apply (shapeCast S1x512 v5 h6) h15 p q, shapeCast_self v5 h6,
    Ideal.ofBits_one_f32, Ideal.ofBits_zero_f32]
  rfl

/-- A step's stored value at running row `s`, lane `q`: what was there plus the 128 groups' entries. -/
theorem pay2_apply (v3 v4 : FVec Ideal S1024x512 .f32) (v5 : FVec Ideal S1x512 .f32) (v19 : FVec Ideal S8x512 .f32)
    (s : Fin 8) (q : Fin 512) :
    Cert.KernelIdeal.Gen.k0_pay2 (F := Ideal) v3 v4 v5 v19 (ix2 s q)
      = v19 (ix2 s q) + ∑ g : Fin 128,
          hinge (v3 (ix2 (subRow g s) q) - v3 (ix2 (subRow g s) (prev q))) * v4 (ix2 (subRow g s) q) * v5 (ix2 (0 : Fin 1) q) := by
  unfold Gen.k0_pay2
  refine (addf_apply _ _ _).trans ?_
  refine congrArg₂ (· + ·) (congrFun (shapeCast_self v19 _) _) ?_
  refine (groupSum_apply _ _ _ _ s q).trans ?_
  refine Finset.sum_congr rfl fun g _ => ?_
  refine (group_apply _ _ g s q).trans ?_
  exact entry_apply v3 v4 v5 _ _ _ (subRow g s) q

end Cert.Payload

end
-- ==== Proof.SumBlocks.lean ====
/-
  A sum over 65536 rows, gathered the way a grid of 2 × 32 steps over blocks of 1024 rows gathers it into 16 running rows.

  Step `k` (of 64) adds, into running row `s` (of 8), the rows `1024 k + 8 g + s` for the 128 groups `g`; the running rows
  start again from nothing at every step that is a multiple of 32. After step `32 c + 31` running row `s` of core `c` therefore
  holds the rows congruent to `s` modulo 8 among rows `32768 c … 32768 c + 32767`, and the 16 running rows together hold
  every row exactly once. Only commutativity and associativity of the addition are used.
-/
import Idealize.ShloMosaic.Lib.ValueIdx

namespace Cert.SumBlocks

open scoped BigOperators

/-- Accumulate `P 0, P 1, …`, starting again at every index that is a multiple of 32. -/
def accum {α : Type*} [AddCommMonoid α] (P : ℕ → α) : ℕ → α
  | 0 => P 0
  | n + 1 => if (n + 1) % 32 = 0 then P (n + 1) else accum P n + P (n + 1)

/-- Within one stretch of 32 indices the accumulation is the plain sum from the stretch's first index:
the restart at `32 c` discards everything before it, and no restart happens at `32 c + j` for `1 ≤ j ≤ 31`. -/
theorem accum_stretch {α : Type*} [AddCommMonoid α] (P : ℕ → α) (c : ℕ) :
    ∀ j : ℕ, j ≤ 31 → accum P (32 * c + j) = ∑ i ∈ Finset.range (j + 1), P (32 * c + i)
  | 0, _ => by
      rw [Finset.sum_range_one]
      cases c with
      | zero => rfl
      | succ c' =>
          have e : 32 * (c' + 1) + 0 = (32 * c' + 31) + 1 := by omega
          rw [e, accum, if_pos (by omega)]
  | j + 1, hj => by
      have e : 32 * c + (j + 1) = (32 * c + j) + 1 := by omega
      rw [Finset.sum_range_succ, ← accum_stretch P c j (by omega), e, accum, if_neg (by omega)]

/-- The value after a stretch's last index is the sum over the whole stretch. -/
theorem accum_stretch_last {α : Type*} [AddCommMonoid α] (P : ℕ → α) (c : ℕ) :
    accum P (32 * c + 31) = ∑ i : Fin 32, P (32 * c + i.val) := by
  rw [accum_stretch P c 31 (le_refl _), Finset.sum_range]

/-- Mixed-radix numbering of the rows: running row `a = 8 c + s`, step `i` within the core's stretch and group `g`
name the row `((32 c + i) · 128 + g) · 8 + s`; every row below 65536 is named exactly once. -/
def rowEquiv : Fin 16 × Fin 32 × Fin 128 ≃ Fin 65536 where
  toFun x := ⟨(x.1.val / 8 * 32 + x.2.1.val) * 1024 + x.2.2.val * 8 + x.1.val % 8, by
    have h1 := x.1.isLt; have h2 := x.2.1.isLt; have h3 := x.2.2.isLt; omega⟩
  invFun r := (⟨r.val / 32768 * 8 + r.val % 8, by have hr := r.isLt; omega⟩,
    ⟨r.val / 1024 % 32, by omega⟩, ⟨r.val / 8 % 128, by omega⟩)
  left_inv := by
    rintro ⟨⟨a, ha⟩, ⟨i, hi⟩, ⟨g, hg⟩⟩
    simp only [Prod.mk.injEq, Fin.mk.injEq]
    refine ⟨?_, ?_, ?_⟩ <;> omega
  right_inv := by
    rintro ⟨r, hr⟩
    simp only [Fin.mk.injEq]
    omega

/-- The 16 running rows, each read after its core's last step, together sum every row once. -/
theorem sum_accum_rows {α : Type*} [AddCommMonoid α] (h : ℕ → α) :
    ∑ a : Fin 16, accum (fun k => ∑ g : Fin 128, h (k * 1024 + g.val * 8 + a.val % 8)) (a.val / 8 * 32 + 31)
      = ∑ r : Fin 65536, h r.val := by
  -- each running row, read at its core's last step, is a double sum over the steps of the stretch and the groups
  have step : ∀ a : Fin 16,
      accum (fun k => ∑ g : Fin 128, h (k * 1024 + g.val * 8 + a.val % 8)) (a.val / 8 * 32 + 31)
        = ∑ i : Fin 32, ∑ g : Fin 128, h ((a.val / 8 * 32 + i.val) * 1024 + g.val * 8 + a.val % 8) := by
    intro a
    have e : a.val / 8 * 32 + 31 = 32 * (a.val / 8) + 31 := by omega
    rw [e, accum_stretch_last]
    refine Finset.sum_congr rfl (fun i _ => ?_)
    refine Finset.sum_congr rfl (fun g _ => ?_)
    have e' : 32 * (a.val / 8) + i.val = a.val / 8 * 32 + i.val := by omega
    rw [e']
  calc ∑ a : Fin 16, accum (fun k => ∑ g : Fin 128, h (k * 1024 + g.val * 8 + a.val % 8)) (a.val / 8 * 32 + 31)
      = ∑ a : Fin 16, ∑ i : Fin 32, ∑ g : Fin 128,
          h ((a.val / 8 * 32 + i.val) * 1024 + g.val * 8 + a.val % 8) :=
        Finset.sum_congr rfl (fun a _ => step a)
    _ = ∑ x : Fin 16 × Fin 32 × Fin 128,
          h ((x.1.val / 8 * 32 + x.2.1.val) * 1024 + x.2.2.val * 8 + x.1.val % 8) := by
        rw [Fintype.sum_prod_type]
        refine Finset.sum_congr rfl (fun a _ => ?_)
        rw [Fintype.sum_prod_type]
    _ = ∑ r : Fin 65536, h r.val :=
        -- the three indices together number the rows bijectively
        Fintype.sum_equiv rowEquiv _ _ (fun _ => rfl)

end Cert.SumBlocks
-- ==== Proof.KAccum.lean ====
/-
  The eight running rows after every grid step.

  A step adds, into running row `s`, lane `q`, the loss terms of the rows `1024 t + 8 g + s` over its 128 groups `g`: the
  lane mask is 0 at lane 0, where the loss term is 0 by definition, and 1 elsewhere, where the product with it changes
  nothing. By induction on the step the running rows hold the accumulation of these sums, started again at each core's
  first step.
-/
import proofs.«122313_j24154896073265_2_alg».proof.Proof.KCases
import proofs.«122313_j24154896073265_2_alg».proof.Proof.KBlocks
import proofs.«122313_j24154896073265_2_alg».proof.Proof.Payload
import proofs.«122313_j24154896073265_2_alg».proof.Proof.SumBlocks
import proofs.«122313_j24154896073265_2_alg».proof.Proof.Spec

noncomputable section

open Idealize.ShloMosaic Idealize.ShloMosaic.TcCoe Idealize.SL.Sem
open Idealize.ShloMosaic.Pipeline (Dat)
open Idealize.ShloMosaic.ValueIdx

namespace Cert.KSide

open Cert.KernelIdeal Cert.KernelIdeal.Gen Cert.Spec

/-- One step's sum over its groups, from blocks that read the arrays at rows `1024 t + p` and a lane mask that is 0 at
    lane 0 and 1 elsewhere, is the sum of the loss terms of rows `1024 t + 8 g + s`. -/
theorem step_sum (x mk : FVec Ideal SX .f32) (t : ℕ) (ht : t < 64) (v3 v4 : FVec Ideal S1024x512 .f32) (v5 : FVec Ideal S1x512 .f32)
    (h3 : ∀ (p : Fin 1024) (q : Fin 512) (r : Fin 65536), r.val = t * 1024 + p.val → v3 (ix2 p q) = x (ix2 r q))
    (h4 : ∀ (p : Fin 1024) (q : Fin 512) (r : Fin 65536), r.val = t * 1024 + p.val → v4 (ix2 p q) = mk (ix2 r q))
    (h5 : ∀ q : Fin 512, v5 (ix2 (0 : Fin 1) q) = if q.val = 0 then (0 : EReal) else 1)
    (s : Fin 8) (q : Fin 512) :
    ∑ g : Fin 128, hinge (v3 (ix2 (subRow g s) q) - v3 (ix2 (subRow g s) (prev q))) * v4 (ix2 (subRow g s) q) * v5 (ix2 (0 : Fin 1) q)
      = ∑ g : Fin 128, rowTerm x mk (t * 1024 + g.val * 8 + s.val) q := by
  refine Finset.sum_congr rfl fun g _ => ?_
  have hlt : t * 1024 + g.val * 8 + s.val < 65536 := by have := g.isLt; have := s.isLt; omega
  have hr : (⟨t * 1024 + g.val * 8 + s.val, hlt⟩ : Fin 65536).val = t * 1024 + (subRow g s).val := by
    show t * 1024 + g.val * 8 + s.val = t * 1024 + (g.val * 8 + s.val); omega
  rw [h3 _ q _ hr, h3 _ (prev q) _ hr, h4 _ q _ hr, h5 q, rowTerm_of_lt x mk _ hlt]
  unfold term
  by_cases hq : q.val = 0
  · rw [if_pos hq, if_pos hq, mul_zero]
  · rw [if_neg hq, if_neg hq, mul_one]

variable (m : (ℓ : Loc nD τ sig) → Buf (Elt Ideal) ℓ)

/-- Lane 0 of the lane mask is 0 and every other lane is 1. -/
theorem lane_apply (c : Dev nD) (q : Fin 512) :
    (V m c main_v4 : S1x512.Idx → Elt Ideal .f32) (ix2 (0 : Fin 1) q) = if q.val = 0 then (0 : EReal) else 1 := by
  rw [V_lane]
  have e1 : broadcastInDim S1x512 ![1] bcast_S512_S1x512_1 (iotaInDim S512 32 0) (ix2 (0 : Fin 1) q) = BitVec.ofNat 32 q.val :=
    (broadcastInDim_apply _ bcast_S512_S1x512_1 _ (ix2 (0 : Fin 1) q) (ix1 q) (fun a => by
      match a with
      | ⟨0, _⟩ => rfl)).trans (iotaInDim_apply 32 0 (ix1 q))
  have key : ∀ q : Fin 512, IntOp.cmpi .eq (BitVec.ofNat 32 q.val) 0#32 = if q.val = 0 then 1#1 else 0#1 := by decide +kernel
  show Scalar.select (IntOp.cmpi .eq (broadcastInDim S1x512 ![1] bcast_S512_S1x512_1 (iotaInDim S512 32 0) (ix2 (0 : Fin 1) q)) 0#32)
    (Ideal.ofBits .f32 0x00000000#32) (Ideal.ofBits .f32 0x3F800000#32) = _
  rw [e1, key q]
  by_cases hq : q.val = 0
  · rw [if_pos hq, if_pos hq]
    exact Ideal.ofBits_zero_f32
  · rw [if_neg hq, if_neg hq]
    exact Ideal.ofBits_one_f32

/-- The argument arrays on core `c`. -/
abbrev X (c : Dev nD) : FVec Ideal SX .f32 := m ((c : Thread nD τ).loc main_arg0)
abbrev Mk (c : Dev nD) : FVec Ideal SX .f32 := m ((c : Thread nD τ).loc main_arg1)

/-- What step `k` adds at running row `s`, lane `q`. -/
abbrev stepAt (c : Dev nD) (s : Fin 8) (q : Fin 512) (k : ℕ) : EReal :=
  ∑ g : Fin 128, rowTerm (X m c) (Mk m c) (k * 1024 + g.val * 8 + s.val) q

/-- A step's value at `(s, q)` over running rows `v19`: what was there plus the step's sum. -/
theorem pay_at (c : Dev nD) (t : Fin cfg0.N) (v19 : FVec Ideal S8x512 .f32) (s : Fin 8) (q : Fin 512) :
    k0_pay2 (F := Ideal) (iblk m c 0 t) (iblk m c 1 t) (iblk m c 2 t) v19 (ix2 s q) = v19 (ix2 s q) + stepAt m c s q t.val := by
  have hN : cfg0.N = 64 := N_0
  refine (Cert.Payload.pay2_apply (iblk m c 0 t) (iblk m c 1 t) (iblk m c 2 t) v19 s q).trans ?_
  congr 1
  exact step_sum (X m c) (Mk m c) t.val (by have := t.isLt; omega) (iblk m c 0 t) (iblk m c 1 t) (iblk m c 2 t)
    (fun p q r hr => iblk0_apply m c t p q r hr) (fun p q r hr => iblk1_apply m c t p q r hr)
    (fun q => (iblk2_apply m c t q).trans (lane_apply m c q)) s q

/-- The running rows after step `n` hold the accumulated step sums. -/
theorem outsAt_eq (c : Dev nD) : ∀ (n : ℕ) (h : n < cfg0.N) (s : Fin 8) (q : Fin 512),
    (outsAt0 m c n h : Vec Ideal S8x512 .f32) (ix2 s q) = Cert.SumBlocks.accum (stepAt m c s q) n
  | 0, h, s, q => by
    rw [outsAt0_A m c ⟨0, h⟩ rfl, out_A]
    refine (pay_at m c ⟨0, h⟩ (k0_pay1 (F := Ideal)) s q).trans ?_
    rw [Cert.Payload.pay1_apply, zero_add]
    rfl
  | n + 1, h, s, q => by
    by_cases hB : (n + 1) % 32 = 0
    · rw [outsAt0_A m c ⟨n + 1, h⟩ hB, out_A]
      refine (pay_at m c ⟨n + 1, h⟩ (k0_pay1 (F := Ideal)) s q).trans ?_
      rw [Cert.Payload.pay1_apply, zero_add, Cert.SumBlocks.accum, if_pos hB]
    · rw [outsAt0_B m c ⟨n + 1, h⟩ hB, out_B]
      refine (pay_at m c ⟨n + 1, h⟩ (outsAt0 m c n (Nat.lt_of_succ_lt h)) s q).trans ?_
      rw [Cert.SumBlocks.accum, if_neg hB, outsAt_eq c n (Nat.lt_of_succ_lt h) s q]

end Cert.KSide

end
-- ==== Proof.KTotal.lean ====
/-
  The sixteen running rows, summed over rows and lanes, are the loss's double sum.

  For each lane the sixteen running rows hold every one of the 65536 rows' terms exactly once (SumBlocks.lean); exchanging
  the order of the two finite sums on each side brings the lane outermost.
-/
import proofs.«122313_j24154896073265_2_alg».proof.Proof.Spec
import proofs.«122313_j24154896073265_2_alg».proof.Proof.SumBlocks

noncomputable section

namespace Cert.KTotal

open Idealize.ShloMosaic Idealize.ShloMosaic.ValueIdx Cert.Spec

/-- Summing the running rows over rows and lanes gives the sum of all loss terms. -/
theorem rows_total (x mk : FVec Ideal SX .f32) :
    ∑ a : Fin 16, ∑ q : Fin 512,
        Cert.SumBlocks.accum (fun k => ∑ g : Fin 128, rowTerm x mk (k * 1024 + g.val * 8 + a.val % 8) q) (a.val / 8 * 32 + 31)
      = ∑ r : Fin 65536, ∑ q : Fin 512, term x mk r q := by
  rw [Finset.sum_comm]
  rw [Finset.sum_comm (s := (Finset.univ : Finset (Fin 65536)))]
  refine Finset.sum_congr rfl fun q _ => ?_
  rw [Cert.SumBlocks.sum_accum_rows (fun r => rowTerm x mk r q)]
  exact Finset.sum_congr rfl fun r _ => rowTerm_of_lt x mk r.val r.isLt q

end Cert.KTotal

end
-- ==== Proof.KFinal.lean ====
/-
  The kernel's result.

  Each core writes its eight running rows back once, after its last step, into rows `8 c … 8 c + 7` of the 16-row array
  the launch returns; the two blocks cover that array. The operations after the launch sum the 16 × 512 array from zero,
  and that sum is the loss (KTotal.lean).
-/
import proofs.«122313_j24154896073265_2_alg».proof.Proof.KAccum
import proofs.«122313_j24154896073265_2_alg».proof.Proof.KTotal
import Idealize.ShloMosaic.Lib.Pipeline.Value
import Idealize.ShloMosaic.Lib.Pipeline.FrameSuffix
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KSide

open Cert.KernelIdeal Cert.KernelIdeal.Gen Cert.Spec

variable (m : (ℓ : Loc nD τ sig) → Buf (Elt Ideal) ℓ) (ρ : Dev nD → PrngReg)

/-- The array the launch returns: row `a` is running row `a mod 8` of core `a / 8` after that core's last step. -/
def outRows (c : Dev nD) : Vec Ideal S16x512 .f32 := fun j =>
  Cert.SumBlocks.accum (stepAt m c ⟨(j 0).val % 8, Nat.mod_lt _ (by norm_num)⟩ (j 1)) ((j 0).val / 8 * 32 + 31)

theorem outRows_apply (c : Dev nD) (j : S16x512.Idx) (s : Fin 8) (q : Fin 512) (n : ℕ)
    (hs : (j 0).val % 8 = s.val) (hq : (j 1).val = q.val) (hn : (j 0).val / 8 * 32 + 31 = n) :
    outRows m c j = Cert.SumBlocks.accum (stepAt m c s q) n := by
  subst hn
  unfold outRows
  have e1 : (⟨(j 0).val % 8, Nat.mod_lt _ (by norm_num)⟩ : Fin 8) = s := Fin.ext hs
  have e2 : (j 1 : Fin 512) = q := Fin.ext hq
  rw [e1, e2]

/-- The running rows after step `n`, at any entry. -/
theorem outsAt_eq' (c : Dev nD) (n : ℕ) (h : n < cfg0.N) (y : S8x512.Idx) :
    (outsAt0 m c n h : Vec Ideal S8x512 .f32) y = Cert.SumBlocks.accum (stepAt m c (y 0) (y 1)) n :=
  (congrArg (outsAt0 m c n h : Vec Ideal S8x512 .f32) (eq_ix2 y)).trans (outsAt_eq m c n h (y 0) (y 1))

/-- What a core's last step writes back is its block of `outRows`. -/
theorem flushed_eq (c : Dev nD) (t : Fin cfg0.N) (hf : (cfg0.win 3).flush t = true) :
    (dats m 0 c).flushed 3 t = ((cfg0.win 3).blk t).view.read (Elt Ideal) (outRows m c) := by
  have hN : cfg0.N = 64 := N_0
  have ht : t.val < 64 := by have := t.isLt; omega
  have h31 : t.val % 32 = 31 := (flush0_3 t).mp hf
  obtain ⟨-, -, -, -, -, -, e6, e7⟩ := idx_facts t
  show (cfg0.win 3).cut (grid0.coords t) ((dats m 0 c).after 3 t) = _
  rw [after0_3]
  funext y
  rw [View.read_apply]
  have hy0 : (y 0).val < 8 := (y 0).isLt
  have hy1 : (y 1).val < 512 := (y 1).isLt
  refine (outsAt_eq' m c t.val t.isLt y).trans (outRows_apply m c _ (y 0) (y 1) t.val ?_ ?_ ?_).symm
  · show (win0_3.index t 0 * 8 + 1 * (y 0).val) % 8 = (y 0).val
    rw [e6]; omega
  · show win0_3.index t 1 * 512 + 1 * (y 1).val = (y 1).val
    rw [e7]; omega
  · show (win0_3.index t 0 * 8 + 1 * (y 0).val) / 8 * 32 + 31 = t.val
    rw [e6]; omega

/-- An entry of the returned array lies in step `t`'s block iff each coordinate lies in the block's range. -/
theorem mem_blk (t : Fin cfg0.N) (i : S16x512.Idx) :
    i ∈ ((cfg0.win 3).blk t).view.set ↔ ∀ a : Fin 2, win0_3.index t a * S8x512.size a ≤ (i a).val
      ∧ (i a).val < win0_3.index t a * S8x512.size a + S8x512.size a := by
  show i ∈ ((View.whole main_v5).slice (win0_3.rect t)).set ↔ _
  rw [View.set_slice_whole, Rect.mem_set_unit]
  exact Iff.rfl

/-- Row `a` of the returned array is written back by core `a / 8`'s last step. -/
theorem cover (i : S16x512.Idx) : ∃ t : Fin cfg0.N, (cfg0.win 3).flush t = true ∧ i ∈ ((cfg0.win 3).blk t).view.set := by
  have hN : cfg0.N = 64 := N_0
  have hi0 : (i 0).val < 16 := (i 0).isLt
  have hi1 : (i 1).val < 512 := (i 1).isLt
  have hlt : (i 0).val / 8 * 32 + 31 < cfg0.N := by rw [hN]; omega
  refine ⟨⟨(i 0).val / 8 * 32 + 31, hlt⟩, (flush0_3 _).mpr (by show ((i 0).val / 8 * 32 + 31) % 32 = 31; omega), ?_⟩
  rw [mem_blk]
  obtain ⟨-, -, -, -, -, -, e6, e7⟩ := idx_facts ⟨(i 0).val / 8 * 32 + 31, hlt⟩
  intro a
  match a with
  | ⟨0, _⟩ =>
    show win0_3.index ⟨(i 0).val / 8 * 32 + 31, hlt⟩ 0 * 8 ≤ (i 0).val ∧ (i 0).val < win0_3.index ⟨(i 0).val / 8 * 32 + 31, hlt⟩ 0 * 8 + 8
    rw [e6]; dsimp only; omega
  | ⟨1, _⟩ =>
    show win0_3.index ⟨(i 0).val / 8 * 32 + 31, hlt⟩ 1 * 512 ≤ (i 1).val ∧ (i 1).val < win0_3.index ⟨(i 0).val / 8 * 32 + 31, hlt⟩ 1 * 512 + 512
    rw [e7]; omega

/-- The returned array after the run. -/
theorem final (c : Dev nD) : (dats m 0 c).arrAt 3 cfg0.N = outRows m c :=
  (dats m 0 c).arrAt_eq_of_cover 3 (outRows m c) (flushed_eq m c) cover

end Cert.KSide

end
-- ==== Proof.KRun.lean ====
/-
  The kernel's run, read: its one result is the loss of the two argument arrays, and the arguments end unchanged.
-/
import proofs.«122313_j24154896073265_2_alg».proof.Proof.KFinal

noncomputable section

open Idealize.ShloMosaic Idealize.ShloMosaic.TcCoe Idealize.SL.Sem
open Idealize.ShloMosaic.Pipeline (Dat)
open Idealize.ShloMosaic.ValueIdx

namespace Cert.KSide

open Cert.KernelIdeal Cert.KernelIdeal.Gen Cert.Spec

variable (m : (ℓ : Loc nD τ sig) → Buf (Elt Ideal) ℓ) (ρ : Dev nD → PrngReg)

/-- The host's sum of a 16 × 512 array from the zero word is zero plus the double sum of its entries. -/
theorem hostSum16 (y : FVec Ideal S16x512 .f32) (i : S_.Idx) :
    Host.reduceAdd (F := Ideal) y (constant (F := Ideal) S_ .f32 0x00000000#32) reducesTo_S16x512_S_d0_1 h_S_ i
      = 0 + ∑ a : Fin 16, ∑ q : Fin 512, y (ix2 a q) := by
  simp only [Host.reduceAdd, Ideal.hostReduceAdd_def]
  refine (Ideal.hostReduceAdd_total reducesTo_S16x512_S_d0_1 (fun b => b.elim0) y _ i).trans ?_
  rw [sum_idx2]
  show Ideal.ofBits .f32 0x00000000#32 + _ = _
  rw [Ideal.ofBits_zero_f32]

/-- The host's sum of the returned array is the loss. -/
theorem total (c : Dev nD) (i : S_.Idx) :
    Host.reduceAdd (F := Ideal) (outRows m c) (constant (F := Ideal) S_ .f32 0x00000000#32) reducesTo_S16x512_S_d0_1 h_S_ i
      = loss (X m c) (Mk m c) := by
  rw [hostSum16]
  unfold loss
  refine congrArg (fun s : EReal => 0 + s) ?_
  refine (Finset.sum_congr rfl fun a _ => Finset.sum_congr rfl fun q _ =>
    outRows_apply m c (ix2 a q) ⟨a.val % 8, Nat.mod_lt _ (by norm_num)⟩ q (a.val / 8 * 32 + 31) rfl rfl rfl).trans ?_
  exact Cert.KTotal.rows_total (X m c) (Mk m c)

/-- What the operations after the launch leave in the result: the host's sum of the returned array. -/
theorem tail_eq (c : Dev nD) :
    Pipeline.afterTail₀ cfgs (dats m) 0 (V0 m) [hostOps1] c main_v6
      = Host.reduceAdd (F := Ideal) (outRows m c) (constant (F := Ideal) S_ .f32 0x00000000#32) reducesTo_S16x512_S_d0_1 h_S_ := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = outRows m c := (Pipeline.withArrays_arr spec0 launch0.win.arr_inj c _ _ 3).trans (final m c)
  rw [e]

/-- Every weakly fair execution of the idealized kernel's program terminates with its result at the loss of the argument
    arrays and the arguments unchanged. -/
theorem run : θ_run defs (onTc (τ := τ) (main (F := Ideal))) ⟨m, fun _ => 0, ρ⟩ fun r => ∀ c : Dev nD,
      r.2.mem ((c.tc : Thread nD τ).loc main_v6) = (fun _ => loss (X m c) (Mk m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v6 (Pipeline.mem_restRefs_of main_v6 rfl (by decide))).trans
        ((tail_eq m c).trans (funext fun i => total m c i)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KSide

end
-- ==== Proof.RefSide.lean ====
/-
  The reference's result is the loss of Spec.lean.

  The reference subtracts the array without its last column from the array without its first, puts a column of zeros in
  front, takes max(|·| − 1, 0), multiplies by the mask and sums everything from zero. At column 0 the padded difference is
  zero, so the factor is max(−1, 0) = 0 and the term vanishes whatever the mask holds; at a column q ≥ 1 the padded
  difference is x[r,q] − x[r,q−1].
-/
import proofs.«122313_j24154896073265_2_alg».proof.Proof.Gen.ReferenceIdeal.Read
import proofs.«122313_j24154896073265_2_alg».proof.Proof.Spec
import Idealize.ShloMosaic.Lib.ValueIdx
import Idealize.ShloMosaic.Lib.KernelVsHost
import Idealize.ShloMosaic.Lib.IdealHost
import Idealize.ShloMosaic.PureOps.Ideal.Laws

noncomputable section

namespace Cert.RefSide

open Idealize.ShloMosaic Idealize.ShloMosaic.ValueIdx Cert.ReferenceIdeal Cert.Spec

/-- On the extended reals max(|0| − 1, 0) = 0. -/
theorem hinge_zero : max (max (0 : EReal) (-0) - 1) 0 = 0 := by
  rw [neg_zero, max_self, zero_sub]
  exact max_eq_right (by
    have h : ((-1 : ℝ) : EReal) ≤ ((0 : ℝ) : EReal) := EReal.coe_le_coe_iff.mpr (by norm_num)
    simpa using h)

/-- The padded difference at column 0 is the padding value, the integer zero read as a float. -/
theorem v3_col0 (x : FVec Ideal S65536x512 .f32) (r : Fin 65536) (q : Fin 512) (hq : q.val = 0) :
    Read.val_main_v3 (F := Ideal) x (ix2 r q) = 0 := by
  unfold Read.val_main_v3
  rw [pad_apply_of_not_inside _ _ _ _ _ Gen.pads_S65536x511_S65536x512_000_100 Gen.h_S_ (ix2 r q)
    (⟨1, by decide⟩ : Fin 2) (by
      intro h
      have h1 : 1 ≤ q.val := h.1
      omega)]
  rw [Read.val_main_call0_v0_apply, Read.val_main_c_apply]
  show (((0#32 : BitVec 32).toInt : ℝ) : EReal) = 0
  simp

/-- The padded difference at a column q ≥ 1 is x[r,q] − x[r,q−1]. -/
theorem v3_pos (x : FVec Ideal S65536x512 .f32) (r : Fin 65536) (q : Fin 512) (hq : q.val ≠ 0) :
    Read.val_main_v3 (F := Ideal) x (ix2 r q) = x (ix2 r q) - x (ix2 r (prev q)) := by
  have hlt : q.val < 512 := q.isLt
  unfold Read.val_main_v3
  rw [pad_apply_of_inside _ _ _ _ _ Gen.pads_S65536x511_S65536x512_000_100 Gen.h_S_ (ix2 r q)
    (ix2 r (⟨q.val - 1, by omega⟩ : Fin 511)) (fun a => match a with
      | ⟨0, _⟩ => by show r.val = 0 + r.val * (0 + 1); omega
      | ⟨1, _⟩ => by show q.val = 1 + (q.val - 1) * (0 + 1); omega)]
  rw [Read.val_main_v2_apply, Read.val_main_v0_apply, Read.val_main_v1_apply, Ideal.subf_def]
  have e0 : Read.idx_main_v0 (ix2 r (⟨q.val - 1, by omega⟩ : Fin 511)) = ix2 r q := by
    funext a
    match a with
    | ⟨0, _⟩ => rfl
    | ⟨1, _⟩ => exact Fin.ext (by show 1 + (q.val - 1) = q.val; omega)
  have e1 : Read.idx_main_v1 (ix2 r (⟨q.val - 1, by omega⟩ : Fin 511)) = ix2 r (prev q) := by
    funext a
    match a with
    | ⟨0, _⟩ => rfl
    | ⟨1, _⟩ => exact Fin.ext (by show q.val - 1 = (prev q).val; rw [prev_val_of_pos q hq])
  rw [e0, e1]

/-- One entry of the product the reference sums is the loss term of that entry. -/
theorem v8_apply (x m : FVec Ideal S65536x512 .f32) (r : Fin 65536) (q : Fin 512) :
    Read.val_main_v8 (F := Ideal) x m (ix2 r q) = term x m r q := by
  rw [Read.val_main_v8_apply, Read.val_main_v7_apply, Read.val_main_v6_apply, Read.val_main_v4_apply,
    Read.val_main_v5_apply, Read.val_main_cst_apply, Read.val_main_call1_v0_apply, Read.val_main_call1_cst_apply,
    Ideal.mulf_def, Ideal.maximumf_def, Ideal.subf_def, Ideal.hostAbsf_def, Ideal.absf_def, Ideal.ofBits_def,
    Ideal.ofBits_def, Ideal.ofBits_one_f32, Ideal.ofBits_zero_f32]
  unfold term
  by_cases hq : q.val = 0
  · rw [if_pos hq, v3_col0 x r q hq, hinge_zero, zero_mul]
  · rw [if_neg hq, v3_pos x r q hq]
    rfl

/-- The reference's last stage, at the ideal instance, is the loss. -/
theorem ref_loss (x m : FVec Ideal S65536x512 .f32) :
    Cert.ReferenceIdeal.Read.val_main_v9 (F := Ideal) x m = fun _ => Cert.Spec.loss x m := by
  funext i
  rw [Read.val_main_v9_apply, Read.val_main_cst_0_apply, Ideal.ofBits_def, Ideal.ofBits_zero_f32, sum_idx2]
  unfold loss
  refine congrArg (fun s : EReal => 0 + s) ?_
  exact Finset.sum_congr rfl fun r _ => Finset.sum_congr rfl fun q _ => v8_apply x m r q

end Cert.RefSide

end
-- ==== Proof.lean ====
/-
  The kernel and its reference compute one loss on the extended reals.

  For two arrays x and mask of 65536 × 512 entries the loss is the sum, from zero, over every row r and every column q ≥ 1,
  of max(|x[r,q] − x[r,q−1]| − 1, 0) · mask[r,q] (Proof/Spec.lean).

  The reference forms the differences of neighbouring columns, puts a column of zeros in front, applies max(|·| − 1, 0),
  multiplies by the mask and sums: at column 0 the factor is max(−1, 0) = 0, so the term vanishes (Proof/RefSide.lean).

  The kernel walks 2 × 32 steps over blocks of 1024 rows. In a step it subtracts from x the same block rotated by one
  lane, applies max(|·| − 1, 0), multiplies by the mask and by a lane mask that is 0 at lane 0 and 1 elsewhere — so lane 0,
  where the rotation brought the last column round, contributes 0, as a product with zero is zero on the extended reals
  whatever the other factor —, groups the 1024 rows by eights, sums over the 128 groups (Proof/Payload.lean) and adds the
  result to eight running rows, which each core starts from zero at its first step (Proof/KCases.lean, Proof/KBlocks.lean,
  Proof/KAccum.lean). Each core writes its running rows back after its last step; the operations after the launch sum the
  16 × 512 array from zero (Proof/KFinal.lean, Proof/KRun.lean). The sixteen running rows hold every row's terms exactly
  once (Proof/SumBlocks.lean), and a finite sum on the extended reals may be regrouped and reordered freely, addition being
  commutative and associative there (Proof/KTotal.lean). No finiteness of the inputs is used.

  The three programs' runs (termination, no fault, arguments unchanged) are the generated frame proofs for the two kernel
  programs and the generated run of the reference; the idealization rewrote no operation, so what it must preserve is
  nothing.
-/
import proofs.«122313_j24154896073265_2_alg».proof.Defs
import proofs.«122313_j24154896073265_2_alg».proof.Proof.Gen.Kernel
import proofs.«122313_j24154896073265_2_alg».proof.Proof.Gen.Kernel.Skeleton
import proofs.«122313_j24154896073265_2_alg».proof.Proof.Gen.Kernel.Launch
import proofs.«122313_j24154896073265_2_alg».proof.Proof.Gen.Kernel.Points
import proofs.«122313_j24154896073265_2_alg».proof.Proof.Gen.Kernel.Frame
import proofs.«122313_j24154896073265_2_alg».proof.Proof.Gen.KernelIdeal
import proofs.«122313_j24154896073265_2_alg».proof.Proof.Gen.KernelIdeal.Skeleton
import proofs.«122313_j24154896073265_2_alg».proof.Proof.Gen.KernelIdeal.Launch
import proofs.«122313_j24154896073265_2_alg».proof.Proof.Gen.KernelIdeal.Points
import proofs.«122313_j24154896073265_2_alg».proof.Proof.Gen.KernelIdeal.Frame
import proofs.«122313_j24154896073265_2_alg».proof.Proof.Gen.ReferenceIdeal
import proofs.«122313_j24154896073265_2_alg».proof.Proof.Gen.ReferenceIdeal.Run
import proofs.«122313_j24154896073265_2_alg».proof.Proof.Gen.ReferenceIdeal.Read
import proofs.«122313_j24154896073265_2_alg».proof.Proof.Gen.Pre_finite_inputs
import proofs.«122313_j24154896073265_2_alg».proof.Proof.KRun
import proofs.«122313_j24154896073265_2_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals the kernel's result and the reference's, from arguments that agree, are both the loss. -/
theorem algebraic : Cert.algebraic_KernelIdeal_ReferenceIdeal := by
  intro m ρ m' ρ' _ hagree
  refine ⟨fun c => (fun _ => Cert.Spec.loss (Cert.KSide.X m c) (Cert.KSide.Mk m c)), Cert.KSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.RefSide.ref_loss, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
